-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .f32⟩
  | .hbm, ⟨77, _⟩ => ⟨S3300000x1, .f32⟩
  | .hbm, ⟨78, _⟩ => ⟨S3300000x64, .f32⟩
  | .hbm, ⟨79, _⟩ => ⟨S3300000x64, .f32⟩
  | .hbm, ⟨80, _⟩ => ⟨S_, .f32⟩
  | .hbm, ⟨81, _⟩ => ⟨S100000x64, .f32⟩
  | .hbm, ⟨82, _⟩ => ⟨S3300000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with EVERY buffer named: each weakly fair execution of @main terminates, and every
  unscoped TensorCore buffer ends at the last boundary's contents — the fold of the host stretches and the four
  regions' write-backs over the launch memory. The frame claim keeps only the arguments of that reading; a value
  claim needs the result buffer too, so the run is stated once here with the whole reading as its post.
-/
import proofs.«169319_j6365141533332_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault, and each unscoped buffer `b` of core
    `c` then holds `W9 m ρ c b`: the segments' chain from the launch memory to the last region's exit. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result buffer and the seven arguments out of that reading: the result at the last boundary's contents, each
    argument as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)
    (run_all m ρ)

end Cert.KernelIdeal.Whole

end
-- ==== Proof.Host0.lean ====
/-
  What the host operations before the first launch leave, as functions of the arguments: the source and target index
  vectors (each edge list followed by the self loops 0 … 99999), and the arguments themselves, which no host operation
  writes. Each is read off the fold of those operations over the launch memory; the index vectors are named by the
  reference's own stages of the same names, so the two programs' shared operations are never opened.
-/
import proofs.«169319_j6365141533332_1_alg».proof.Proof.Gen.KernelIdeal.Frame
import proofs.«169319_j6365141533332_1_alg».proof.Proof.Gen.ReferenceIdeal.Read
import Idealize.ShloMosaic.Lib.StableHlo.Run

set_option maxRecDepth 16384

noncomputable section

namespace Cert.KernelIdeal.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The source index vector. -/
theorem W3_v3 : W3 m ρ c (Proc.devRef .tc main_v3) = Cert.ReferenceIdeal.Read.val_main_v3 (F := Ideal) (m ((c : Thread nD τ).loc main_arg1)) := by
  dsimp only [W3, W2, W1, W0, hostOps0, hostOps0_1, hostOps0_2]
  after_results_simp
  rfl

/-- The target index vector. -/
theorem W3_v6 : W3 m ρ c (Proc.devRef .tc main_v6) = Cert.ReferenceIdeal.Read.val_main_v6 (F := Ideal) (m ((c : Thread nD τ).loc main_arg1)) := by
  dsimp only [W3, W2, W1, W0, hostOps0, hostOps0_1, hostOps0_2]
  after_results_simp
  rfl

theorem W3_arg0 : W3 m ρ c (Proc.devRef .tc main_arg0) = m ((c : Thread nD τ).loc main_arg0) := by
  dsimp only [W3, W2, W1, W0, hostOps0, hostOps0_1, hostOps0_2]
  after_results_simp
theorem W3_arg3 : W3 m ρ c (Proc.devRef .tc main_arg3) = m ((c : Thread nD τ).loc main_arg3) := by
  dsimp only [W3, W2, W1, W0, hostOps0, hostOps0_1, hostOps0_2]
  after_results_simp
theorem W3_arg4 : W3 m ρ c (Proc.devRef .tc main_arg4) = m ((c : Thread nD τ).loc main_arg4) := by
  dsimp only [W3, W2, W1, W0, hostOps0, hostOps0_1, hostOps0_2]
  after_results_simp
theorem W3_arg5 : W3 m ρ c (Proc.devRef .tc main_arg5) = m ((c : Thread nD τ).loc main_arg5) := by
  dsimp only [W3, W2, W1, W0, hostOps0, hostOps0_1, hostOps0_2]
  after_results_simp
theorem W3_arg6 : W3 m ρ c (Proc.devRef .tc main_arg6) = m ((c : Thread nD τ).loc main_arg6) := by
  dsimp only [W3, W2, W1, W0, hostOps0, hostOps0_1, hostOps0_2]
  after_results_simp

end Cert.KernelIdeal.Walk

end
-- ==== Proof.Norm.lean ====
/-
  The edges' normalisation weights, read off the host operations before the first launch in three steps: the degree
  vector's reciprocal square root (zero where the degree is not positive) from the first stretch, then each edge's weight
  times that quantity at its source and at its target. Each step is named by the reference's stage of the same name, so
  neither the degree's scatter-add nor the two gathers is opened.
-/
import proofs.«169319_j6365141533332_1_alg».proof.Proof.Gen.KernelIdeal.Frame
import proofs.«169319_j6365141533332_1_alg».proof.Proof.Gen.ReferenceIdeal.Read
import Idealize.ShloMosaic.Lib.StableHlo.Run

set_option maxRecDepth 16384

noncomputable section

namespace Cert.KernelIdeal.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- An edge's weight times the per-node factor at its source and at its target (a negative index is first wrapped by the
    number of nodes, as the indexing operation spells it). -/
def edgeNorm (dis : FVec Ideal S100000 .f32) (row col : IVec S3300000 32) (w : FVec Ideal S3300000 .f32) : FVec Ideal S3300000 .f32 :=
  mulf (mulf (Host.gather gather_S100000_S3300000x1_S3300000_n_0_n_n_0_1_1 dis
        (broadcastInDim S3300000x1 ![0] bcast_S3300000_S3300000x1_0
          (select (cmpi .slt row (broadcastInDim S3300000 ![] bcast_S_S3300000 (constantI S_ 32 0#32)))
            (addi row (broadcastInDim S3300000 ![] bcast_S_S3300000 (constantI S_ 32 100000#32))) row))) w)
    (Host.gather gather_S100000_S3300000x1_S3300000_n_0_n_n_0_1_1 dis
        (broadcastInDim S3300000x1 ![0] bcast_S3300000_S3300000x1_0
          (select (cmpi .slt col (broadcastInDim S3300000 ![] bcast_S_S3300000 (constantI S_ 32 0#32)))
            (addi col (broadcastInDim S3300000 ![] bcast_S_S3300000 (constantI S_ 32 100000#32))) col)))

/-- The third stretch computes the edges' weights from the per-node factor, the index vectors and the raw weights. -/
theorem hostOps0_2_v31 (U : Valuation τ sig (Elt Ideal)) :
    StableHlo.after hostOps0_2 U (Proc.devRef .tc main_v31)
      = edgeNorm (U (Proc.devRef .tc main_v15)) (U (Proc.devRef .tc main_v3)) (U (Proc.devRef .tc main_v6)) (U (Proc.devRef .tc main_v8)) := by
  dsimp only [hostOps0_2]
  after_results_simp
  rfl

/-- The second stretch selects the per-node factor: the reciprocal square root where the degree is positive, else zero. -/
theorem hostOps0_1_v15 (U : Valuation τ sig (Elt Ideal)) :
    StableHlo.after hostOps0_1 U (Proc.devRef .tc main_v15)
      = select (U (Proc.devRef .tc main_v13)) (U (Proc.devRef .tc main_v14)) (broadcastInDim S100000 ![] bcast_S_S100000 (U (Proc.devRef .tc main_cst_2))) := by
  dsimp only [hostOps0_1]
  after_results
  rfl

theorem hostOps0_1_keeps (U : Valuation τ sig (Elt Ideal)) :
    StableHlo.after hostOps0_1 U (Proc.devRef .tc main_v3) = U (Proc.devRef .tc main_v3)
    ∧ StableHlo.after hostOps0_1 U (Proc.devRef .tc main_v6) = U (Proc.devRef .tc main_v6)
    ∧ StableHlo.after hostOps0_1 U (Proc.devRef .tc main_v8) = U (Proc.devRef .tc main_v8) := by
  dsimp only [hostOps0_1]
  refine ⟨?_, ?_, ?_⟩ <;> after_results

/-- The first stretch's results the later ones read, each the reference's stage of the arguments. -/
theorem W1_v3 : W1 m ρ c (Proc.devRef .tc main_v3) = Cert.ReferenceIdeal.Read.val_main_v3 (F := Ideal) (m ((c : Thread nD τ).loc main_arg1)) := by
  dsimp only [W1, W0, hostOps0]
  after_results_simp
  rfl
theorem W1_v6 : W1 m ρ c (Proc.devRef .tc main_v6) = Cert.ReferenceIdeal.Read.val_main_v6 (F := Ideal) (m ((c : Thread nD τ).loc main_arg1)) := by
  dsimp only [W1, W0, hostOps0]
  after_results_simp
  rfl
theorem W1_v8 : W1 m ρ c (Proc.devRef .tc main_v8) = Cert.ReferenceIdeal.Read.val_main_v8 (F := Ideal) (m ((c : Thread nD τ).loc main_arg2)) := by
  dsimp only [W1, W0, hostOps0]
  after_results_simp
  rfl
set_option maxRecDepth 65536 in
theorem W1_v13 : W1 m ρ c (Proc.devRef .tc main_v13) = Cert.ReferenceIdeal.Read.val_main_v13 (F := Ideal) (m ((c : Thread nD τ).loc main_arg1)) (m ((c : Thread nD τ).loc main_arg2)) := by
  dsimp only [W1, W0, hostOps0]
  after_results_simp
  rfl
set_option maxRecDepth 65536 in
theorem W1_v14 : W1 m ρ c (Proc.devRef .tc main_v14) = Cert.ReferenceIdeal.Read.val_main_v14 (F := Ideal) (m ((c : Thread nD τ).loc main_arg1)) (m ((c : Thread nD τ).loc main_arg2)) := by
  dsimp only [W1, W0, hostOps0]
  after_results_simp
  rfl
theorem W1_cst_2 : W1 m ρ c (Proc.devRef .tc main_cst_2) = Cert.ReferenceIdeal.Read.val_main_cst_2 (F := Ideal) := by
  dsimp only [W1, W0, hostOps0]
  after_results_simp
  rfl

/-- The reference's edge weights are the same function of its own stages. -/
theorem ref_v31 (x1 : (⟨Cert.ReferenceIdeal.S2x3200000, .i32⟩ : BufTy).Contents (Elt Ideal)) (x2 : (⟨Cert.ReferenceIdeal.S3200000, .f32⟩ : BufTy).Contents (Elt Ideal)) :
    Cert.ReferenceIdeal.Read.val_main_v31 (F := Ideal) x1 x2
      = edgeNorm (Cert.ReferenceIdeal.Read.val_main_v15 (F := Ideal) x1 x2) (Cert.ReferenceIdeal.Read.val_main_v3 (F := Ideal) x1) (Cert.ReferenceIdeal.Read.val_main_v6 (F := Ideal) x1) (Cert.ReferenceIdeal.Read.val_main_v8 (F := Ideal) x2) := rfl

/-- The reference's per-node factor is the same selection of its own stages. -/
theorem ref_v15 (x1 : (⟨Cert.ReferenceIdeal.S2x3200000, .i32⟩ : BufTy).Contents (Elt Ideal)) (x2 : (⟨Cert.ReferenceIdeal.S3200000, .f32⟩ : BufTy).Contents (Elt Ideal)) :
    Cert.ReferenceIdeal.Read.val_main_v15 (F := Ideal) x1 x2
      = select (Cert.ReferenceIdeal.Read.val_main_v13 (F := Ideal) x1 x2) (Cert.ReferenceIdeal.Read.val_main_v14 (F := Ideal) x1 x2) (broadcastInDim S100000 ![] bcast_S_S100000 (Cert.ReferenceIdeal.Read.val_main_cst_2 (F := Ideal))) := rfl

/-- The edges' weights as the region after the third stretch finds them. -/
theorem W3_v31 : W3 m ρ c (Proc.devRef .tc main_v31) = Cert.ReferenceIdeal.Read.val_main_v31 (F := Ideal) (m ((c : Thread nD τ).loc main_arg1)) (m ((c : Thread nD τ).loc main_arg2)) := by
  obtain ⟨k3, k6, k8⟩ := hostOps0_1_keeps (W1 m ρ c)
  rw [ref_v31, ref_v15, ← W1_v3 m ρ c, ← W1_v6 m ρ c, ← W1_v8 m ρ c, ← W1_v13 m ρ c, ← W1_v14 m ρ c, ← W1_cst_2 m ρ c,
    ← hostOps0_1_v15 (W1 m ρ c), ← k3, ← k6, ← k8]
  exact hostOps0_2_v31 (W2 m ρ c)

end Cert.KernelIdeal.Walk

end
-- ==== Proof.Pass.lean ====
/-
  One graph-convolution pass as ONE function: gather the rows of a [100000, 64] matrix at the edges' sources, scale each by
  its edge's weight, and add it into its edge's target row. Both host stretches between the launches are this function of
  the matrix the preceding launch left, of the two index vectors and of the edge weights; so is each of the reference's two
  passes. The gather and the scatter are never opened: the certificate only needs that equal matrices go in.
-/
import proofs.«169319_j6365141533332_1_alg».proof.Proof.Gen.KernelIdeal.Frame
import proofs.«169319_j6365141533332_1_alg».proof.Proof.Gen.ReferenceIdeal.Read
import Idealize.ShloMosaic.Lib.StableHlo.Run

set_option maxRecDepth 16384

noncomputable section

namespace Cert.KernelIdeal.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The pass: scatter-add, into a zero matrix at the target indices, of the gathered source rows times the edge weights
    (a negative index is first wrapped by the number of rows, as the indexing operation spells it). -/
def pass (lin : FVec Ideal S100000x64 .f32) (row col : IVec S3300000 32) (nrm : FVec Ideal S3300000 .f32) : FVec Ideal S100000x64 .f32 :=
  Host.scatterAdd scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 col)
    (mulf (Host.gather gather_S100000x64_S3300000x1_S3300000x64_1_0_n_n_0_1_164 lin
        (broadcastInDim S3300000x1 ![0] bcast_S3300000_S3300000x1_0
          (select (cmpi .slt row (broadcastInDim S3300000 ![] bcast_S_S3300000 (constantI S_ 32 0#32)))
            (addi row (broadcastInDim S3300000 ![] bcast_S_S3300000 (constantI S_ 32 100000#32))) row)))
      (broadcastInDim S3300000x64 ![0, 1] bcast_S3300000x1_S3300000x64_0_1 (broadcastInDim S3300000x1 ![0] bcast_S3300000_S3300000x1_0 nrm)))

/-- The host stretch after the first launch computes the pass of that launch's result, from ANY contents. -/
theorem hostOps1_v45 (U : Valuation τ sig (Elt Ideal)) :
    StableHlo.after hostOps1 U (Proc.devRef .tc main_v45)
      = pass (U (Proc.devRef .tc main_v32)) (U (Proc.devRef .tc main_v3)) (U (Proc.devRef .tc main_v6)) (U (Proc.devRef .tc main_v31)) := by
  dsimp only [hostOps1]
  after_results_simp
  rfl

/-- … and lays the first bias out as a row. -/
theorem hostOps1_v46 (U : Valuation τ sig (Elt Ideal)) :
    StableHlo.after hostOps1 U (Proc.devRef .tc main_v46) = shapeCast S1x64 (U (Proc.devRef .tc main_arg4)) shapeCasts_S64_S1x64 := by
  dsimp only [hostOps1]
  after_results
  rfl

/-- The host stretch after the third launch computes the pass of that launch's result, from ANY contents. -/
theorem hostOps3_v61 (U : Valuation τ sig (Elt Ideal)) :
    StableHlo.after hostOps3 U (Proc.devRef .tc main_v61)
      = pass (U (Proc.devRef .tc main_v48)) (U (Proc.devRef .tc main_v3)) (U (Proc.devRef .tc main_v6)) (U (Proc.devRef .tc main_v31)) := by
  dsimp only [hostOps3]
  after_results_simp
  rfl

/-- … and lays the second bias out as a row. -/
theorem hostOps3_v62 (U : Valuation τ sig (Elt Ideal)) :
    StableHlo.after hostOps3 U (Proc.devRef .tc main_v62) = shapeCast S1x64 (U (Proc.devRef .tc main_arg6)) shapeCasts_S64_S1x64 := by
  dsimp only [hostOps3]
  after_results
  rfl

/-- Neither stretch writes the index vectors, the weights or the second-layer arguments. -/
theorem hostOps1_keeps (U : Valuation τ sig (Elt Ideal)) :
    StableHlo.after hostOps1 U (Proc.devRef .tc main_v3) = U (Proc.devRef .tc main_v3)
    ∧ StableHlo.after hostOps1 U (Proc.devRef .tc main_v6) = U (Proc.devRef .tc main_v6)
    ∧ StableHlo.after hostOps1 U (Proc.devRef .tc main_v31) = U (Proc.devRef .tc main_v31)
    ∧ StableHlo.after hostOps1 U (Proc.devRef .tc main_arg5) = U (Proc.devRef .tc main_arg5)
    ∧ StableHlo.after hostOps1 U (Proc.devRef .tc main_arg6) = U (Proc.devRef .tc main_arg6) := by
  dsimp only [hostOps1]
  refine ⟨?_, ?_, ?_, ?_, ?_⟩ <;> after_results

/-- The reference's first pass is the pass of its first product. -/
theorem ref_v45 (x0 : (⟨Cert.ReferenceIdeal.S100000x128, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S128x64, .f32⟩ : BufTy).Contents (Elt Ideal)) :
    Cert.ReferenceIdeal.Read.val_main_v45 (F := Ideal) x0 x1 x2 x3
      = pass (Cert.ReferenceIdeal.Read.val_main_v32 (F := Ideal) x0 x3) (Cert.ReferenceIdeal.Read.val_main_v3 (F := Ideal) x1) (Cert.ReferenceIdeal.Read.val_main_v6 (F := Ideal) x1) (Cert.ReferenceIdeal.Read.val_main_v31 (F := Ideal) x1 x2) := rfl

end Cert.KernelIdeal.Walk

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Region0.lean ====
/-
  The first launch — a row-tiled matrix product, twenty row blocks of 5000 — leaves in its result array the whole
  product: entry (r, q) is the sum over k of x(r, k) · w(k, q) on the extended reals (the casts to a narrower float
  format on the way into the product are the identity there). Block t of the result depends on rows 5000t … 5000t+4999
  of x and on all of w; the twenty blocks tile the 100000 rows.
  Stated for ANY contents V the launch is entered from, against the host's dot_general of the same two arrays.
-/
import proofs.«169319_j6365141533332_1_alg».proof.Proof.Gen.KernelIdeal.Frame
import proofs.«169319_j6365141533332_1_alg».proof.Proof.Gen.ReferenceIdeal.Read
import proofs.«169319_j6365141533332_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Layer0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the 128-term sum of products of the loaded blocks. -/
theorem pay_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.LibMatmulPlain.matmul_zero_apply (M := 5000) (K := 128) (N := 64)
    dot_S5000x128_S128x64_S5000x64_1_0_0_1_n_n.wf none _ _ p q

/-- Where the three windows' blocks sit at point t: x's and the result's at row block t, w's whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's product of the two arrays the launch reads. -/
abbrev G (c : Dev nD) : Buf (Elt Ideal) ((c : Thread nD τ).loc main_v32) :=
  Cert.ReferenceIdeal.Read.val_main_v32 (F := Ideal) (V c main_arg0) (V c main_arg3)

/-- What point t writes back is block t of the product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext y
  obtain ⟨p, q, rfl⟩ : ∃ (p : Fin 5000) (q : Fin 64), y = ix2 p q := ⟨y 0, y 1, eq_ix2 y⟩
  show k0_pay1 (iblk0 V c 0 t) (iblk0 V c 1 t) (ix2 p q) = G V c (((cfg0.win 2).blk t).view.emb (ix2 p q))
  rw [pay_apply]
  refine Eq.trans ?_ (Cert.ReferenceIdeal.Read.val_main_v32_apply _ _ _).symm
  refine Finset.sum_congr rfl fun k _ => ?_
  have h0 : iblk0 V c 0 t (ix2 p k) = V c main_arg0 (Cert.ReferenceIdeal.Read.lidx_main_v32 (((cfg0.win 2).blk t).view.emb (ix2 p q)) k) := by
    unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ix2 k q) = V c main_arg3 (Cert.ReferenceIdeal.Read.ridx_main_v32 (((cfg0.win 2).blk t).view.emb (ix2 p q)) k) := by
    unfold iblk0
    rw [View.read_apply]
    show V c main_arg3 _ = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]

/-- An index of the result array is in point t's block iff its row is in rows 5000t … 5000t+4999. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The result array after the launch is the product. -/
theorem final (c : Dev nD) : (dat0 V c).arrAt 2 cfg0.N = G V c :=
  (dat0 V c).arrAt_eq_of_cover 2 (G V c) (fun t _ => flushed_eq V c t) fun i => by
    have hi0 : (i 0).val < 100000 := (i 0).isLt
    have hi1 : (i 1).val < 64 := (i 1).isLt
    have hN : cfg0.N = 20 := N_0
    refine ⟨⟨(i 0).val / 5000, by rw [hN]; omega⟩, flush0_2 _, ?_⟩
    rw [mem_blk]
    obtain ⟨e0, e1, e2, e3, e4, e5⟩ := idx_facts ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
    | ⟨1, _⟩ => show win0_2.index _ (1 : Fin 2) * 64 ≤ (i 1).val ∧ (i 1).val < win0_2.index _ (1 : Fin 2) * 64 + 64; rw [e5]; omega

end Cert.KernelIdeal.Layer0

end
-- ==== Proof.Spec.lean ====
/-
  Two pointwise row operations on a [100000, 64] matrix of extended reals, and the read-at-an-entry form of each:
  adding a bias row — entry (r, q) becomes a(r, q) + b(0, q) — and the same followed by the maximum with zero.
-/
import Idealize.ShloMosaic.PureOps.Ideal
import Idealize.ShloMosaic.Lib.ValueIdx

noncomputable section

namespace Cert.Gcn

open Idealize.ShloMosaic Idealize.ShloMosaic.ValueIdx

/-- A matrix plus a bias row repeated down its rows. -/
def addRow (a : FVec Ideal ⟨2, ![100000, 64]⟩ .f32) (b : FVec Ideal ⟨2, ![1, 64]⟩ .f32) : FVec Ideal ⟨2, ![100000, 64]⟩ .f32 :=
  fun i => a i + b (ix2 (0 : Fin 1) (i 1))

/-- A matrix plus a bias row, then the maximum with zero, entry by entry. -/
def addRowRelu (a : FVec Ideal ⟨2, ![100000, 64]⟩ .f32) (b : FVec Ideal ⟨2, ![1, 64]⟩ .f32) : FVec Ideal ⟨2, ![100000, 64]⟩ .f32 :=
  fun i => max (a i + b (ix2 (0 : Fin 1) (i 1))) (Ideal.ofBits .f32 0x00000000#32)

end Cert.Gcn

end
-- ==== Proof.Region1.lean ====
/-
  Launch 1 adds a bias row to a row-tiled [100000, 64] matrix and takes the maximum with zero, twenty row blocks of 5000: block t of
  the result depends on rows 5000t … 5000t+4999 of the matrix and on the one bias row; the twenty blocks tile the rows.
  Stated for ANY contents V the launch is entered from.
-/
import proofs.«169319_j6365141533332_1_alg».proof.Proof.Gen.KernelIdeal.Frame
import proofs.«169319_j6365141533332_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the matrix block's entry plus the bias row's entry q, against zero. -/
theorem pay_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  show max (shapeCast S5000x64 x0 _ (ix2 p q) + broadcastTo S5000x64 (shapeCast S1x64 x1 _) _ (ix2 p q)) _ = _
  rw [shapeCast_self, shapeCast_self, broadcastTo_1b_ab_apply]
  rfl

/-- Where the three windows' blocks sit at point t: the matrix's and the result's at row block t, the bias row whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole result: the launch's operation on the two arrays it reads. -/
abbrev G (c : Dev nD) : Buf (Elt Ideal) ((c : Thread nD τ).loc main_v47) :=
  Cert.Gcn.addRowRelu (V c main_v45) (V c main_v46)

/-- What point t writes back is block t of the whole result. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext y
  obtain ⟨p, q, rfl⟩ : ∃ (p : Fin 5000) (q : Fin 64), y = ix2 p q := ⟨y 0, y 1, eq_ix2 y⟩
  show k1_pay1 (iblk1 V c 0 t) (iblk1 V c 1 t) (ix2 p q) = G V c (((cfg1.win 2).blk t).view.emb (ix2 p q))
  rw [pay_apply]
  have h0 : iblk1 V c 0 t (ix2 p q) = V c main_v45 (((cfg1.win 2).blk t).view.emb (ix2 p q)) := by
    unfold iblk1
    rw [View.read_apply]
    show V c main_v45 _ = V c main_v45 _
    refine congrArg (V c main_v45) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : iblk1 V c 1 t (ix2 (0 : Fin 1) q) = V c main_v46 (ix2 (0 : Fin 1) ((((cfg1.win 2).blk t).view.emb (ix2 p q)) 1)) := by
    unfold iblk1
    rw [View.read_apply]
    show V c main_v46 _ = V c main_v46 _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]
  rfl

/-- An index of the result array is in point t's block iff its row is in rows 5000t … 5000t+4999. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The result array after the launch is the whole result. -/
theorem final (c : Dev nD) : (dat1 V c).arrAt 2 cfg1.N = G V c :=
  (dat1 V c).arrAt_eq_of_cover 2 (G V c) (fun t _ => flushed_eq V c t) fun i => by
    have hi0 : (i 0).val < 100000 := (i 0).isLt
    have hi1 : (i 1).val < 64 := (i 1).isLt
    have hN : cfg1.N = 20 := N_1
    refine ⟨⟨(i 0).val / 5000, by rw [hN]; omega⟩, flush1_2 _, ?_⟩
    rw [mem_blk]
    obtain ⟨e0, e1, e2, e3, e4, e5⟩ := idx_facts ⟨(i 0).val / 5000, by rw [hN]; omega⟩
    intro a
    match a with
    | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
    | ⟨1, _⟩ => show win1_2.index _ (1 : Fin 2) * 64 ≤ (i 1).val ∧ (i 1).val < win1_2.index _ (1 : Fin 2) * 64 + 64; rw [e5]; omega

end Cert.KernelIdeal.Layer1

end
-- ==== Proof.Region2.lean ====
/-
  The third launch — a row-tiled matrix product, twenty row blocks of 5000, of the hidden [100000, 64] matrix by a
  [64, 64] weight — leaves in its result array the whole product: entry (r, q) is the sum over k of h(r, k) · w(k, q) on
  the extended reals (the casts to a narrower float format on the way into the product are the identity there). Block t
  of the result depends on rows 5000t … 5000t+4999 of h and on all of w; the twenty blocks tile the rows.
  Stated for ANY contents V the launch is entered from, against the host's dot_general of the same two arrays.
-/
import proofs.«169319_j6365141533332_1_alg».proof.Proof.Gen.KernelIdeal.Frame
import proofs.«169319_j6365141533332_1_alg».proof.Proof.Gen.ReferenceIdeal.Read
import proofs.«169319_j6365141533332_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen

/-- The host's product of ANY [100000, 64] matrix by a [64, 64] one, read at an entry: the 64-term sum of products. -/
theorem dot_apply (y0 : FVec Ideal Cert.ReferenceIdeal.S100000x64 .f32) (x5 : FVec Ideal Cert.ReferenceIdeal.S64x64 .f32)
    (i : Cert.ReferenceIdeal.S100000x64.Idx) :
    Host.dotGeneral (F := Ideal) Cert.ReferenceIdeal.dot_S100000x64_S64x64_S100000x64_1_0_0_1_n_n none y0 x5 i
      = ∑ k : Fin 64, y0 (Cert.ReferenceIdeal.Read.lidx_main_v50 i k) * x5 (Cert.ReferenceIdeal.Read.ridx_main_v50 i k) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx i ((ValueIdx.contrEquiv1 Cert.ReferenceIdeal.dot_S100000x64_S64x64_S100000x64_1_0_0_1_n_n 64 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : (Cert.ReferenceIdeal.dot_S100000x64_S64x64_S100000x64_1_0_0_1_n_n).rhsIdx i ((ValueIdx.contrEquiv1 Cert.ReferenceIdeal.dot_S100000x64_S64x64_S100000x64_1_0_0_1_n_n 64 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the 64-term sum of products of the loaded blocks. -/
theorem pay_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  rw [shapeCast_self]
  exact Cert.LibMatmulPlain.matmul_zero_apply (M := 5000) (K := 64) (N := 64)
    dot_S5000x64_S64x64_S5000x64_1_0_0_1_n_n.wf none _ _ p q

/-- Where the three windows' blocks sit at point t: h's and the result's at row block t, w's whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The host's product of the two arrays the launch reads. -/
abbrev G (c : Dev nD) : Buf (Elt Ideal) ((c : Thread nD τ).loc main_v48) :=
  Host.dotGeneral (F := Ideal) (φ₁ := .f32) (φ₂ := .f32) Cert.ReferenceIdeal.dot_S100000x64_S64x64_S100000x64_1_0_0_1_n_n none (V c main_v47) (V c main_arg5)

/-- What point t writes back is block t of the product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext y
  obtain ⟨p, q, rfl⟩ : ∃ (p : Fin 5000) (q : Fin 64), y = ix2 p q := ⟨y 0, y 1, eq_ix2 y⟩
  show k2_pay1 (iblk2 V c 0 t) (iblk2 V c 1 t) (ix2 p q) = G V c (((cfg2.win 2).blk t).view.emb (ix2 p q))
  rw [pay_apply]
  refine Eq.trans ?_ (dot_apply _ _ _).symm
  refine Finset.sum_congr rfl fun k _ => ?_
  have h0 : iblk2 V c 0 t (ix2 p k) = V c main_v47 (Cert.ReferenceIdeal.Read.lidx_main_v50 (((cfg2.win 2).blk t).view.emb (ix2 p q)) k) := by
    unfold iblk2
    rw [View.read_apply]
    show V c main_v47 _ = V c main_v47 _
    refine congrArg (V c main_v47) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : iblk2 V c 1 t (ix2 k q) = V c main_arg5 (Cert.ReferenceIdeal.Read.ridx_main_v50 (((cfg2.win 2).blk t).view.emb (ix2 p q)) k) := by
    unfold iblk2
    rw [View.read_apply]
    show V c main_arg5 _ = V c main_arg5 _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]

/-- An index of the result array is in point t's block iff its row is in rows 5000t … 5000t+4999. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The result array after the launch is the product. -/
theorem final (c : Dev nD) : (dat2 V c).arrAt 2 cfg2.N = G V c :=
  (dat2 V c).arrAt_eq_of_cover 2 (G V c) (fun t _ => flushed_eq V c t) fun i => by
    have hi0 : (i 0).val < 100000 := (i 0).isLt
    have hi1 : (i 1).val < 64 := (i 1).isLt
    have hN : cfg2.N = 20 := N_2
    refine ⟨⟨(i 0).val / 5000, by rw [hN]; omega⟩, flush2_2 _, ?_⟩
    rw [mem_blk]
    obtain ⟨e0, e1, e2, e3, e4, e5⟩ := idx_facts ⟨(i 0).val / 5000, by rw [hN]; omega⟩
    intro a
    match a with
    | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
    | ⟨1, _⟩ => show win2_2.index _ (1 : Fin 2) * 64 ≤ (i 1).val ∧ (i 1).val < win2_2.index _ (1 : Fin 2) * 64 + 64; rw [e5]; omega

end Cert.KernelIdeal.Layer2

end
-- ==== Proof.Region3.lean ====
/-
  Launch 3 adds a bias row to a row-tiled [100000, 64] matrix, twenty row blocks of 5000: block t of
  the result depends on rows 5000t … 5000t+4999 of the matrix and on the one bias row; the twenty blocks tile the rows.
  Stated for ANY contents V the launch is entered from.
-/
import proofs.«169319_j6365141533332_1_alg».proof.Proof.Gen.KernelIdeal.Frame
import proofs.«169319_j6365141533332_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Layer3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the matrix block's entry plus the bias row's entry q. -/
theorem pay_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  show shapeCast S5000x64 x0 _ (ix2 p q) + broadcastTo S5000x64 (shapeCast S1x64 x1 _) _ (ix2 p q) = _
  rw [shapeCast_self, shapeCast_self, broadcastTo_1b_ab_apply]

/-- Where the three windows' blocks sit at point t: the matrix's and the result's at row block t, the bias row whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole result: the launch's operation on the two arrays it reads. -/
abbrev G (c : Dev nD) : Buf (Elt Ideal) ((c : Thread nD τ).loc main_v63) :=
  Cert.Gcn.addRow (V c main_v61) (V c main_v62)

/-- What point t writes back is block t of the whole result. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext y
  obtain ⟨p, q, rfl⟩ : ∃ (p : Fin 5000) (q : Fin 64), y = ix2 p q := ⟨y 0, y 1, eq_ix2 y⟩
  show k3_pay1 (iblk3 V c 0 t) (iblk3 V c 1 t) (ix2 p q) = G V c (((cfg3.win 2).blk t).view.emb (ix2 p q))
  rw [pay_apply]
  have h0 : iblk3 V c 0 t (ix2 p q) = V c main_v61 (((cfg3.win 2).blk t).view.emb (ix2 p q)) := by
    unfold iblk3
    rw [View.read_apply]
    show V c main_v61 _ = V c main_v61 _
    refine congrArg (V c main_v61) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : iblk3 V c 1 t (ix2 (0 : Fin 1) q) = V c main_v62 (ix2 (0 : Fin 1) ((((cfg3.win 2).blk t).view.emb (ix2 p q)) 1)) := by
    unfold iblk3
    rw [View.read_apply]
    show V c main_v62 _ = V c main_v62 _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

/-- An index of the result array is in point t's block iff its row is in rows 5000t … 5000t+4999. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The result array after the launch is the whole result. -/
theorem final (c : Dev nD) : (dat3 V c).arrAt 2 cfg3.N = G V c :=
  (dat3 V c).arrAt_eq_of_cover 2 (G V c) (fun t _ => flushed_eq V c t) fun i => by
    have hi0 : (i 0).val < 100000 := (i 0).isLt
    have hi1 : (i 1).val < 64 := (i 1).isLt
    have hN : cfg3.N = 20 := N_3
    refine ⟨⟨(i 0).val / 5000, by rw [hN]; omega⟩, flush3_2 _, ?_⟩
    rw [mem_blk]
    obtain ⟨e0, e1, e2, e3, e4, e5⟩ := idx_facts ⟨(i 0).val / 5000, by rw [hN]; omega⟩
    intro a
    match a with
    | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
    | ⟨1, _⟩ => show win3_2.index _ (1 : Fin 2) * 64 ≤ (i 1).val ∧ (i 1).val < win3_2.index _ (1 : Fin 2) * 64 + 64; rw [e5]; omega

end Cert.KernelIdeal.Layer3

end
-- ==== Proof.Chain.lean ====
/-
  The idealized kernel's result as ONE function of the seven arguments, read off the boundary contents of its run from
  the last launch back to the first: the second bias added to the pass of (hidden · W2), where hidden is the maximum with
  zero of the first bias added to the pass of (x · W1), every pass over the same index vectors and edge weights. Each
  launch's result array is that launch's whole-array function of what it was entered from; each host stretch between
  launches is the pass; the index vectors, the edge weights and the arguments cross every launch and stretch unchanged.
-/
import proofs.«169319_j6365141533332_1_alg».proof.Proof.Host0
import proofs.«169319_j6365141533332_1_alg».proof.Proof.Norm
import proofs.«169319_j6365141533332_1_alg».proof.Proof.Pass
import proofs.«169319_j6365141533332_1_alg».proof.Proof.Region0
import proofs.«169319_j6365141533332_1_alg».proof.Proof.Region1
import proofs.«169319_j6365141533332_1_alg».proof.Proof.Region2
import proofs.«169319_j6365141533332_1_alg».proof.Proof.Region3

set_option maxRecDepth 16384

noncomputable section

namespace Cert.KernelIdeal.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The first layer: bias and maximum with zero over the pass of the first product. -/
def layer1 (x0 : FVec Ideal S100000x128 .f32) (x1 : IVec S2x3200000 32) (x2 : FVec Ideal S3200000 .f32) (x3 : FVec Ideal S128x64 .f32)
    (x4 : FVec Ideal S64 .f32) : FVec Ideal S100000x64 .f32 :=
  Cert.Gcn.addRowRelu
    (pass (Cert.ReferenceIdeal.Read.val_main_v32 (F := Ideal) x0 x3) (Cert.ReferenceIdeal.Read.val_main_v3 (F := Ideal) x1) (Cert.ReferenceIdeal.Read.val_main_v6 (F := Ideal) x1) (Cert.ReferenceIdeal.Read.val_main_v31 (F := Ideal) x1 x2))
    (shapeCast S1x64 x4 shapeCasts_S64_S1x64)

/-- The second layer: bias over the pass of the product of the first layer by the second weight. -/
def layer2 (x0 : FVec Ideal S100000x128 .f32) (x1 : IVec S2x3200000 32) (x2 : FVec Ideal S3200000 .f32) (x3 : FVec Ideal S128x64 .f32)
    (x4 : FVec Ideal S64 .f32) (x5 : FVec Ideal S64x64 .f32) (x6 : FVec Ideal S64 .f32) : FVec Ideal S100000x64 .f32 :=
  Cert.Gcn.addRow
    (pass (Host.dotGeneral (F := Ideal) (φ₁ := .f32) (φ₂ := .f32) Cert.ReferenceIdeal.dot_S100000x64_S64x64_S100000x64_1_0_0_1_n_n none (layer1 x0 x1 x2 x3 x4) x5)
      (Cert.ReferenceIdeal.Read.val_main_v3 (F := Ideal) x1) (Cert.ReferenceIdeal.Read.val_main_v6 (F := Ideal) x1) (Cert.ReferenceIdeal.Read.val_main_v31 (F := Ideal) x1 x2))
    (shapeCast S1x64 x6 shapeCasts_S64_S1x64)

/-! ## Across the first launch -/

theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_v31 : W4 m ρ c (Proc.devRef .tc main_v31) = Cert.ReferenceIdeal.Read.val_main_v31 (F := Ideal) (m ((c : Thread nD τ).loc main_arg1)) (m ((c : Thread nD τ).loc main_arg2)) :=
  (W4_of_ne m ρ c main_v31 (by decide)).trans (W3_v31 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)

/-- The first launch leaves the product x · W1. -/
theorem W4_v32 : W4 m ρ c (Proc.devRef .tc main_v32) = Cert.ReferenceIdeal.Read.val_main_v32 (F := Ideal) (m ((c : Thread nD τ).loc main_arg0)) (m ((c : Thread nD τ).loc main_arg3)) := by
  refine ((W4_arr m ρ c 2).trans (Cert.KernelIdeal.Layer0.final (V3 m ρ) c)).trans ?_
  show Cert.ReferenceIdeal.Read.val_main_v32 (F := Ideal) (W3 m ρ c (Proc.devRef .tc main_arg0)) (W3 m ρ c (Proc.devRef .tc main_arg3)) = _
  rw [W3_arg0, W3_arg3]

/-! ## The stretch to the second launch, and across it -/

theorem W5_v45 : W5 m ρ c (Proc.devRef .tc main_v45)
    = pass (Cert.ReferenceIdeal.Read.val_main_v32 (F := Ideal) (m ((c : Thread nD τ).loc main_arg0)) (m ((c : Thread nD τ).loc main_arg3))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v31 (F := Ideal) (m ((c : Thread nD τ).loc main_arg1)) (m ((c : Thread nD τ).loc main_arg2))) := by
  refine (hostOps1_v45 (W4 m ρ c)).trans ?_
  rw [W4_v32, W4_v3, W4_v6, W4_v31]

theorem W5_v46 : W5 m ρ c (Proc.devRef .tc main_v46) = shapeCast S1x64 (m ((c : Thread nD τ).loc main_arg4)) shapeCasts_S64_S1x64 := by
  refine (hostOps1_v46 (W4 m ρ c)).trans ?_
  rw [W4_arg4]

theorem W5_v3 : W5 m ρ c (Proc.devRef .tc main_v3) = Cert.ReferenceIdeal.Read.val_main_v3 (F := Ideal) (m ((c : Thread nD τ).loc main_arg1)) :=
  (hostOps1_keeps (W4 m ρ c)).1.trans (W4_v3 m ρ c)
theorem W5_v6 : W5 m ρ c (Proc.devRef .tc main_v6) = Cert.ReferenceIdeal.Read.val_main_v6 (F := Ideal) (m ((c : Thread nD τ).loc main_arg1)) :=
  (hostOps1_keeps (W4 m ρ c)).2.1.trans (W4_v6 m ρ c)
theorem W5_v31 : W5 m ρ c (Proc.devRef .tc main_v31) = Cert.ReferenceIdeal.Read.val_main_v31 (F := Ideal) (m ((c : Thread nD τ).loc main_arg1)) (m ((c : Thread nD τ).loc main_arg2)) :=
  (hostOps1_keeps (W4 m ρ c)).2.2.1.trans (W4_v31 m ρ c)
theorem W5_arg5 : W5 m ρ c (Proc.devRef .tc main_arg5) = (m ((c : Thread nD τ).loc main_arg5)) :=
  (hostOps1_keeps (W4 m ρ c)).2.2.2.1.trans (W4_arg5 m ρ c)
theorem W5_arg6 : W5 m ρ c (Proc.devRef .tc main_arg6) = (m ((c : Thread nD τ).loc main_arg6)) :=
  (hostOps1_keeps (W4 m ρ c)).2.2.2.2.trans (W4_arg6 m ρ c)

/-- The second launch leaves the first layer. -/
theorem W6_v47 : W6 m ρ c (Proc.devRef .tc main_v47) = layer1 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W6_arr m ρ c 2).trans (Cert.KernelIdeal.Layer1.final (V5 m ρ) c)).trans ?_
  show Cert.Gcn.addRowRelu (W5 m ρ c (Proc.devRef .tc main_v45)) (W5 m ρ c (Proc.devRef .tc main_v46)) = _
  rw [W5_v45, W5_v46]
  rfl

theorem W6_v3 : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.Read.val_main_v6 (F := Ideal) (m ((c : Thread nD τ).loc main_arg1)) :=
  (W6_of_ne m ρ c main_v6 (by decide)).trans (W5_v6 m ρ c)
theorem W6_v31 : W6 m ρ c (Proc.devRef .tc main_v31) = Cert.ReferenceIdeal.Read.val_main_v31 (F := Ideal) (m ((c : Thread nD τ).loc main_arg1)) (m ((c : Thread nD τ).loc main_arg2)) :=
  (W6_of_ne m ρ c main_v31 (by decide)).trans (W5_v31 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)

/-! ## Across the third launch -/

/-- The third launch leaves the product of the first layer by W2. -/
theorem W7_v48 : W7 m ρ c (Proc.devRef .tc main_v48)
    = Host.dotGeneral (F := Ideal) (φ₁ := .f32) (φ₂ := .f32) Cert.ReferenceIdeal.dot_S100000x64_S64x64_S100000x64_1_0_0_1_n_n none (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine ((W7_arr m ρ c 2).trans (Cert.KernelIdeal.Layer2.final (V6 m ρ) c)).trans ?_
  show Host.dotGeneral (F := Ideal) (φ₁ := .f32) (φ₂ := .f32) Cert.ReferenceIdeal.dot_S100000x64_S64x64_S100000x64_1_0_0_1_n_n none (W6 m ρ c (Proc.devRef .tc main_v47)) (W6 m ρ c (Proc.devRef .tc main_arg5)) = _
  rw [W6_v47, W6_arg5]

theorem W7_v3 : W7 m ρ c (Proc.devRef .tc main_v3) = Cert.ReferenceIdeal.Read.val_main_v3 (F := Ideal) (m ((c : Thread nD τ).loc main_arg1)) :=
  (W7_of_ne m ρ c main_v3 (by decide)).trans (W6_v3 m ρ c)
theorem W7_v6 : W7 m ρ c (Proc.devRef .tc main_v6) = Cert.ReferenceIdeal.Read.val_main_v6 (F := Ideal) (m ((c : Thread nD τ).loc main_arg1)) :=
  (W7_of_ne m ρ c main_v6 (by decide)).trans (W6_v6 m ρ c)
theorem W7_v31 : W7 m ρ c (Proc.devRef .tc main_v31) = Cert.ReferenceIdeal.Read.val_main_v31 (F := Ideal) (m ((c : Thread nD τ).loc main_arg1)) (m ((c : Thread nD τ).loc main_arg2)) :=
  (W7_of_ne m ρ c main_v31 (by decide)).trans (W6_v31 m ρ c)
theorem W7_arg6 : W7 m ρ c (Proc.devRef .tc main_arg6) = (m ((c : Thread nD τ).loc main_arg6)) :=
  (W7_of_ne m ρ c main_arg6 (by decide)).trans (W6_arg6 m ρ c)

/-! ## The last stretch and the last launch -/

theorem W8_v61 : W8 m ρ c (Proc.devRef .tc main_v61)
    = pass (Host.dotGeneral (F := Ideal) (φ₁ := .f32) (φ₂ := .f32) Cert.ReferenceIdeal.dot_S100000x64_S64x64_S100000x64_1_0_0_1_n_n none (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
        (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v31 (F := Ideal) (m ((c : Thread nD τ).loc main_arg1)) (m ((c : Thread nD τ).loc main_arg2))) := by
  refine (hostOps3_v61 (W7 m ρ c)).trans ?_
  rw [W7_v48, W7_v3, W7_v6, W7_v31]

theorem W8_v62 : W8 m ρ c (Proc.devRef .tc main_v62) = shapeCast S1x64 (m ((c : Thread nD τ).loc main_arg6)) shapeCasts_S64_S1x64 := by
  refine (hostOps3_v62 (W7 m ρ c)).trans ?_
  rw [W7_arg6]

/-- THE RESULT: the last launch leaves the second layer. -/
theorem W9_v63 : W9 m ρ c (Proc.devRef .tc main_v63) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W9_arr m ρ c 2).trans (Cert.KernelIdeal.Layer3.final (V8 m ρ) c)).trans ?_
  show Cert.Gcn.addRow (W8 m ρ c (Proc.devRef .tc main_v61)) (W8 m ρ c (Proc.devRef .tc main_v62)) = _
  rw [W8_v61, W8_v62]
  rfl

end Cert.KernelIdeal.Walk

end
-- ==== Proof.RefValue.lean ====
/-
  The reference's result is the same function of the seven arguments as the idealized kernel's: its second pass is the
  pass of (hidden · W2), its hidden matrix the maximum with zero of the first bias added to its first pass — the bias
  vector repeated down the rows reads, at (r, q), its entry q, which is what the kernel's bias row reads there.
-/
import proofs.«169319_j6365141533332_1_alg».proof.Proof.Chain

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.KernelIdeal.Walk

/-- The reference's second pass is the pass of its second product. -/
theorem ref_v63 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    val_main_v63 (F := Ideal) x0 x1 x2 x3 x4 x5
      = pass (val_main_v50 (F := Ideal) x0 x1 x2 x3 x4 x5) (val_main_v3 (F := Ideal) x1) (val_main_v6 (F := Ideal) x1) (val_main_v31 (F := Ideal) x1 x2) := rfl

/-- The reference's hidden matrix is the first layer. -/
theorem ref_v49 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) :
    val_main_v49 (F := Ideal) x0 x1 x2 x3 x4 = layer1 x0 x1 x2 x3 x4 := by
  funext i
  obtain ⟨r, q, rfl⟩ : ∃ (r : Fin 100000) (q : Fin 64), i = ix2 r q := ⟨i 0, i 1, eq_ix2 i⟩
  rw [val_main_v49_apply, val_main_v48_apply, val_main_v47_apply, val_main_v46_apply, ref_v45, val_main_call1_v0_apply,
    val_main_call1_cst_apply]
  unfold layer1 Cert.Gcn.addRowRelu
  have hb : x4 (idx_main_v46 (idx_main_v47 (ix2 r q)))
      = shapeCast Cert.KernelIdeal.S1x64 x4 Cert.KernelIdeal.Gen.shapeCasts_S64_S1x64 (ix2 (0 : Fin 1) q) := by
    rw [shapeCast_a_1a_apply]
    exact congrArg x4 (funext fun a => Fin.ext (by match a with | ⟨0, _⟩ => rfl))
  rw [hb]
  rfl

/-- The reference's second product is the product of the first layer by W2. -/
theorem ref_v50 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    val_main_v50 (F := Ideal) x0 x1 x2 x3 x4 x5
      = Host.dotGeneral (F := Ideal) (φ₁ := .f32) (φ₂ := .f32) Cert.ReferenceIdeal.dot_S100000x64_S64x64_S100000x64_1_0_0_1_n_n none (layer1 x0 x1 x2 x3 x4) x5 := by
  unfold val_main_v50
  rw [ref_v49]

/-- The reference's result is the second layer. -/
theorem ref_v66 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) :
    val_main_v66 (F := Ideal) x0 x1 x2 x3 x4 x5 x6 = layer2 x0 x1 x2 x3 x4 x5 x6 := by
  funext i
  obtain ⟨r, q, rfl⟩ : ∃ (r : Fin 100000) (q : Fin 64), i = ix2 r q := ⟨i 0, i 1, eq_ix2 i⟩
  rw [val_main_v66_apply, val_main_v65_apply, val_main_v64_apply, ref_v63, ref_v50]
  unfold layer2 Cert.Gcn.addRow
  have hb : x6 (idx_main_v64 (idx_main_v65 (ix2 r q)))
      = shapeCast Cert.KernelIdeal.S1x64 x6 Cert.KernelIdeal.Gen.shapeCasts_S64_S1x64 (ix2 (0 : Fin 1) q) := by
    rw [shapeCast_a_1a_apply]
    exact congrArg x6 (funext fun a => Fin.ext (by match a with | ⟨0, _⟩ => rfl))
  rw [hb]
  rfl

end Cert.ReferenceIdeal.RefValue

end
-- ==== Proof.lean ====
/-
  Two layers of graph convolution — a row-tiled matrix product, a gather of the product's rows at the edges' sources scaled
  by the symmetric normalisation weights and added into the edges' targets, then a bias row (and, after the first layer,
  the maximum with zero) — computed by four launches among host operations, against the same network written with plain
  array operations. On the extended reals the two programs compute one function of the seven arguments: every host
  operation outside the launches is shared by the two programs and is carried through unopened; the launches' matrix
  products are the host's products entry by entry (the same 128- and 64-term sums; the narrowing casts on the way in are
  the identity), and a bias row added block by block is the bias vector repeated down the rows. No law of arithmetic
  beyond that is used, so the inputs' finiteness is never opened.
-/
import proofs.«169319_j6365141533332_1_alg».proof.Defs
import proofs.«169319_j6365141533332_1_alg».proof.Proof.Gen.Kernel
import proofs.«169319_j6365141533332_1_alg».proof.Proof.Gen.Kernel.Skeleton
import proofs.«169319_j6365141533332_1_alg».proof.Proof.Gen.Kernel.Launch
import proofs.«169319_j6365141533332_1_alg».proof.Proof.Gen.Kernel.Points
import proofs.«169319_j6365141533332_1_alg».proof.Proof.Gen.Kernel.Frame
import proofs.«169319_j6365141533332_1_alg».proof.Proof.Gen.KernelIdeal
import proofs.«169319_j6365141533332_1_alg».proof.Proof.Gen.KernelIdeal.Skeleton
import proofs.«169319_j6365141533332_1_alg».proof.Proof.Gen.KernelIdeal.Launch
import proofs.«169319_j6365141533332_1_alg».proof.Proof.Gen.KernelIdeal.Points
import proofs.«169319_j6365141533332_1_alg».proof.Proof.Gen.KernelIdeal.Frame
import proofs.«169319_j6365141533332_1_alg».proof.Proof.Gen.ReferenceIdeal
import proofs.«169319_j6365141533332_1_alg».proof.Proof.Gen.ReferenceIdeal.Run
import proofs.«169319_j6365141533332_1_alg».proof.Proof.Gen.ReferenceIdeal.Read
import proofs.«169319_j6365141533332_1_alg».proof.Proof.Gen.Pre_finite_inputs
import proofs.«169319_j6365141533332_1_alg».proof.Proof.KernelRun
import proofs.«169319_j6365141533332_1_alg».proof.Proof.Chain
import proofs.«169319_j6365141533332_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k [Cert.Kernel.Facts] [Cert.Pre_finite_inputs.Facts] : Cert.frame_Kernel := fun m ρ _ => Cert.Kernel.Gen.frame m ρ

/-- So does the idealized kernel. -/
theorem frame_ki [Cert.KernelIdeal.Facts] [Cert.Pre_finite_inputs.Facts] : Cert.frame_KernelIdeal := fun m ρ _ => Cert.KernelIdeal.Gen.frame m ρ

/-- The reference runs and leaves its arguments as launched: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the second layer of the arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Walk.layer2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Walk.W9_v63 m ρ c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, Cert.ReferenceIdeal.RefValue.ref_v66,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
